-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x1024 : Shape := ⟨3, ![64, 256, 1024]⟩
abbrev S1024x1024 : Shape := ⟨2, ![1024, 1024]⟩
abbrev S16x1024 : Shape := ⟨2, ![16, 1024]⟩
abbrev S16 : Shape := ⟨1, ![16]⟩
abbrev S_ : Shape := ⟨0, ![]⟩

class Facts : Prop where
  bcast_S_S64x256x1024 : S_.BroadcastsInDim S64x256x1024 (![] : Fin 0 → Fin S64x256x1024.rank)
  reducesTo_S64x256x1024_S_d0_1_2 : S64x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S16x1024 : S_.BroadcastsInDim S16x1024 (![] : Fin 0 → Fin S16x1024.rank)
  reducesTo_S16x1024_S_d0_1 : S16x1024.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S64x256x1024 .f32) (main_arg1 : FVec F S1024x1024 .f32) (main_arg2 : FVec F S16x1024 .f32) (main_arg3 : FVec F S16 .f32) : IVec S_ 1 :=
  let main_v0 : FVec F S64x256x1024 .f32 := Host.absf main_arg0
  let main_cst : FVec F S_ .f32 := constant S_ .f32 0x7F800000#32
  let main_v1 : FVec F S64x256x1024 .f32 := broadcastInDim S64x256x1024 ![] bcast_S_S64x256x1024 main_cst
  let main_v2 : IVec S64x256x1024 1 := cmpf .olt main_v0 main_v1
  let main_c : IVec S_ 1 := constantI S_ 1 1#1
  let main_v3 : IVec S_ 1 := (fun x v => Host.reduce IntOp.andi x v reducesTo_S64x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S16x1024 .f32 := Host.absf main_arg2
  let main_cst_2 : FVec F S_ .f32 := constant S_ .f32 0x7F800000#32
  let main_v10 : FVec F S16x1024 .f32 := broadcastInDim S16x1024 ![] bcast_S_S16x1024 main_cst_2
  let main_v11 : IVec S16x1024 1 := cmpf .olt main_v9 main_v10
  let main_c_3 : IVec S_ 1 := constantI S_ 1 1#1
  let main_v12 : IVec S_ 1 := (fun x v => Host.reduce IntOp.andi x v reducesTo_S16x1024_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S64x256x1024 : Shape := ⟨3, ![64, 256, 1024]⟩
abbrev S1024x1024 : Shape := ⟨2, ![1024, 1024]⟩
abbrev S16x1024 : Shape := ⟨2, ![16, 1024]⟩
abbrev S16 : Shape := ⟨1, ![16]⟩
abbrev S16384x1024 : Shape := ⟨2, ![16384, 1024]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S1x16 : Shape := ⟨2, ![1, 16]⟩
abbrev S16384x16 : Shape := ⟨2, ![16384, 16]⟩
abbrev S512x1024 : Shape := ⟨2, ![512, 1024]⟩
abbrev S512x16 : Shape := ⟨2, ![512, 16]⟩
abbrev S512 : Shape := ⟨1, ![512]⟩
abbrev S512x1 : Shape := ⟨2, ![512, 1]⟩
abbrev S64x256x16 : Shape := ⟨3, ![64, 256, 16]⟩

abbrev nBuf : Space → Nat
  | .hbm => 15
  | .vmem => 8
  | .smem => 0
  | _ => 0

abbrev bufTy : (tb : Table) → Fin (tcTables nBuf tb) → BufTy
  | .hbm, ⟨0, _⟩ => ⟨S64x256x1024, .f32⟩
  | .hbm, ⟨1, _⟩ => ⟨S1024x1024, .f32⟩
  | .hbm, ⟨2, _⟩ => ⟨S16x1024, .f32⟩
  | .hbm, ⟨3, _⟩ => ⟨S16, .f32⟩
  | .hbm, ⟨4, _⟩ => ⟨S16384x1024, .f32⟩
  | .hbm, ⟨5, _⟩ => ⟨S1024x1024, .bf16⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1x1024, .f32⟩
  | .hbm, ⟨11, _⟩ => ⟨S16x1024, .bf16⟩
  | .hbm, ⟨12, _⟩ => ⟨S1x16, .f32⟩
  | .hbm, ⟨13, _⟩ => ⟨S16384x16, .f32⟩
  | .hbm, ⟨14, _⟩ => ⟨S64x256x16, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S16x1024, .bf16⟩
  | .local _ .vmem, ⟨5, _⟩ => ⟨S1x16, .f32⟩
  | .local _ .vmem, ⟨6, _⟩ => ⟨S512x16, .f32⟩
  | .local _ .vmem, ⟨7, _⟩ => ⟨S512x16, .f32⟩
  | _, _ => ⟨S64x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x256x1024_S16384x1024 : S64x256x1024.ShapeCasts S16384x1024
  bitsLt_bf16_f32 : FTy.bits .bf16 < FTy.bits .f32
  reducesTo_S1024x1024_S1024_d1 : S1024x1024.ReducesTo [1] S1024
  h_S_ : 0 < S_.numel
  bcast_S1024_S1024x1_0 : S1024.BroadcastsInDim S1024x1 (![0] : Fin 1 → Fin S1024x1.rank)
  shapeCasts_S1024x1_S1x1024 : S1024x1.ShapeCasts S1x1024
  shapeCasts_S16_S1x16 : S16.ShapeCasts S1x16
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  reduces_S512x16_S512 : S512x16.Reduces [1] S512
  broadcasts_S512x1_S512x16 : S512x1.Broadcasts S512x16
  inb_S512x16_S512x16_0_0 : ∀ a, (![0, 0] : Fin 2 → Nat) a + S512x16.size a ≤ S512x16.size a
  h_S512x16 : 0 < S512x16.numel
  shapeCasts_S16384x16_S64x256x16 : S16384x16.ShapeCasts S64x256x16
  dot_S512x1024_S1024x1024_S512x1024_1_1_0_0_n_n_wf : DotDims.WF S512x1024 S1024x1024 S512x1024 [1] [1] [0] [0] [] []
  dot_S512x1024_S16x1024_S512x16_1_1_0_0_n_n_wf : DotDims.WF S512x1024 S16x1024 S512x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x1024.size a
  hwx0_3 : ∀ i : grid0.Coords, EltTy.bits .bf16 = 32 ∨ (Rect.block (s := S16x1024) S16x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x16.size a ≤ S16384x16.size a
  hwx0_5 : ∀ i : grid0.Coords, EltTy.bits .f32 = 32 ∨ (Rect.block (s := S16384x16) S512x16.size (cc0_transform_5 i) (hinb0_5 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S16x1024_S512x16_1_1_0_0_n_n : DotDims S512x1024 S16x1024 S512x16 where
  lhsContracting := [1]
  rhsContracting := [1]
  lhsNonContracting := [0]
  rhsNonContracting := [0]
  lhsBatch := []
  rhsBatch := []
  wf := dot_S512x1024_S16x1024_S512x16_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S16x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S512x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x256x1024 : Shape := ⟨3, ![64, 256, 1024]⟩
abbrev S1024x1024 : Shape := ⟨2, ![1024, 1024]⟩
abbrev S16x1024 : Shape := ⟨2, ![16, 1024]⟩
abbrev S16 : Shape := ⟨1, ![16]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S64x256x16 : Shape := ⟨3, ![64, 256, 16]⟩
abbrev S1x1x16 : Shape := ⟨3, ![1, 1, 16]⟩
abbrev S64x256 : Shape := ⟨2, ![64, 256]⟩
abbrev S64x256x1 : Shape := ⟨3, ![64, 256, 1]⟩

abbrev nBuf : Space → Nat
  | .hbm => 43
  | .vmem => 0
  | .smem => 0
  | _ => 0

abbrev bufTy : (tb : Table) → Fin (tcTables nBuf tb) → BufTy
  | .hbm, ⟨0, _⟩ => ⟨S64x256x1024, .f32⟩
  | .hbm, ⟨1, _⟩ => ⟨S1024x1024, .f32⟩
  | .hbm, ⟨2, _⟩ => ⟨S16x1024, .f32⟩
  | .hbm, ⟨3, _⟩ => ⟨S16, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S1024x1024, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S1024x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S64x256x1024, .f32⟩
  | .hbm, ⟨25, _⟩ => ⟨S64x256x16, .f32⟩
  | .hbm, ⟨26, _⟩ => ⟨S1x1x16, .f32⟩
  | .hbm, ⟨27, _⟩ => ⟨S64x256x16, .f32⟩
  | .hbm, ⟨28, _⟩ => ⟨S64x256x16, .f32⟩
  | .hbm, ⟨29, _⟩ => ⟨S_, .f32⟩
  | .hbm, ⟨30, _⟩ => ⟨S64x256, .f32⟩
  | .hbm, ⟨31, _⟩ => ⟨S_, .f32⟩
  | .hbm, ⟨32, _⟩ => ⟨S64x256, .f32⟩
  | .hbm, ⟨33, _⟩ => ⟨S64x256, .f32⟩
  | .hbm, ⟨34, _⟩ => ⟨S64x256x1, .f32⟩
  | .hbm, ⟨35, _⟩ => ⟨S64x256x16, .f32⟩
  | .hbm, ⟨36, _⟩ => ⟨S64x256x16, .f32⟩
  | .hbm, ⟨37, _⟩ => ⟨S64x256x16, .f32⟩
  | .hbm, ⟨38, _⟩ => ⟨S_, .f32⟩
  | .hbm, ⟨39, _⟩ => ⟨S64x256, .f32⟩
  | .hbm, ⟨40, _⟩ => ⟨S64x256x1, .f32⟩
  | .hbm, ⟨41, _⟩ => ⟨S64x256x16, .f32⟩
  | .hbm, ⟨42, _⟩ => ⟨S64x256x16, .f32⟩
  | _, _ => ⟨S64x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]

class Facts₀ : Prop where
  shapeCasts_S64x256x1024_S16384x1024 : S64x256x1024.ShapeCasts S16384x1024
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S1024x1024_S1024_d1 : S1024x1024.ReducesTo [1] S1024
  bcast_S1024_S1x1024_1 : S1024.BroadcastsInDim S1x1024 (![1] : Fin 1 → Fin S1x1024.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  transposes_S1024x1024_S1024x1024_1_0 : S1024x1024.Transposes [1, 0] S1024x1024
  bcast_S_S16384x1024 : S_.BroadcastsInDim S16384x1024 (![] : Fin 0 → Fin S16384x1024.rank)
  shapeCasts_S16384x1024_S64x256x1024 : S16384x1024.ShapeCasts S64x256x1024
  bcast_S16_S1x1x16_2 : S16.BroadcastsInDim S1x1x16 (![2] : Fin 1 → Fin S1x1x16.rank)
  bcast_S1x1x16_S64x256x16_0_1_2 : S1x1x16.BroadcastsInDim S64x256x16 (![0, 1, 2] : Fin 3 → Fin S64x256x16.rank)
  reducesTo_S64x256x16_S64x256_d2 : S64x256x16.ReducesTo [2] S64x256
  bcast_S_S64x256 : S_.BroadcastsInDim S64x256 (![] : Fin 0 → Fin S64x256.rank)
  bcast_S64x256_S64x256x1_0_1 : S64x256.BroadcastsInDim S64x256x1 (![0, 1] : Fin 2 → Fin S64x256x1.rank)
  bcast_S64x256x1_S64x256x16_0_1_2 : S64x256x1.BroadcastsInDim S64x256x16 (![0, 1, 2] : Fin 3 → Fin S64x256x16.rank)
  dot_S16384x1024_S1024x1024_S16384x1024_1_0_0_1_n_n_wf : DotDims.WF S16384x1024 S1024x1024 S16384x1024 [1] [0] [0] [1] [] []
  dot_S64x256x1024_S16x1024_S64x256x16_2_1_01_0_n_n_wf : DotDims.WF S64x256x1024 S16x1024 S64x256x16 [2] [1] [0, 1] [0] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S64x256x1024_S16x1024_S64x256x16_2_1_01_0_n_n : DotDims S64x256x1024 S16x1024 S64x256x16 where
  lhsContracting := [2]
  rhsContracting := [1]
  lhsNonContracting := [0, 1]
  rhsNonContracting := [0]
  lhsBatch := []
  rhsBatch := []
  wf := dot_S64x256x1024_S16x1024_S64x256x16_2_1_01_0_n_n_wf

class Facts : Prop extends Facts₀ where

variable [Facts]
-- ==== Proof.Spec.lean ====
/-
  A prototype layer, a linear classifier and a softmax, on the extended reals.

  A row x of 1024 features is compared with each of 1024 prototypes p_j by the expanded squared distance
  d_j = (|x|^2 + |p_j|^2) - 2 <x, p_j>; its similarity to p_j is exp(-d_j); class c's logit is
  sum_j exp(-d_j) * w_(c,j) + b_c; the result is the softmax of the 16 logits, taken as
  exp(l_c - M) / sum_c' exp(l_c' - M) with M = max(-inf, max_c l_c) (the fold of max from -inf).
  The squared norms of the prototypes are a parameter of the row function, so that a caller who has them
  already (as one row of 1024 numbers) and a caller who recomputes them state the same term.
  Sums are finite sums of extended reals, in which the order of the terms does not matter.
-/
import Idealize.ShloMosaic.PureOps.Ideal
import Idealize.ShloMosaic.PureOps.Ideal.Laws
import Idealize.ShloMosaic.Lib.ValueIdx

noncomputable section

open scoped BigOperators

namespace Cert.ProtoSoftmax

open Idealize.ShloMosaic Idealize.ShloMosaic.ValueIdx

/-- The float word of 2.0, read as an extended real. -/
abbrev two : EReal := Ideal.ofBits .f32 0x40000000#32
/-- The float word of minus infinity, read as an extended real. -/
abbrev ninf : EReal := Ideal.ofBits .f32 0xFF800000#32

/-- The squared norm of a row: the sum of the squares of its entries. -/
def sqnorm (x : Fin 1024 → EReal) : EReal := ∑ k, x k * x k

/-- The similarity of a row to one prototype whose squared norm is `psq`: exp of minus the expanded squared distance. -/
def sim (x p : Fin 1024 → EReal) (psq : EReal) : EReal :=
  Ideal.exp (-((sqnorm x + psq) - two * ∑ k, x k * p k))

/-- One class's logit: the similarities to all prototypes weighted by the class's weights, plus its bias. -/
def logit (x : Fin 1024 → EReal) (P : Fin 1024 → Fin 1024 → EReal) (psq : Fin 1024 → EReal) (w : Fin 1024 → EReal)
    (b : EReal) : EReal :=
  (∑ j, sim x (P j) (psq j) * w j) + b

/-- The shift of the softmax: the largest of the 16 logits, as the fold of max from minus infinity, once more against minus infinity. -/
def rowmax (l : Fin 16 → EReal) : EReal := max ninf ((Finset.univ : Finset (Fin 16)).fold max ninf l)

/-- The softmax of 16 logits at class `c`. -/
def softmax (l : Fin 16 → EReal) (c : Fin 16) : EReal :=
  Ideal.div (Ideal.exp (l c - rowmax l)) (∑ c', Ideal.exp (l c' - rowmax l))

/-- The whole row function: the class probabilities of a row. -/
def out (x : Fin 1024 → EReal) (P : Fin 1024 → Fin 1024 → EReal) (psq : Fin 1024 → EReal) (W : Fin 16 → Fin 1024 → EReal)
    (B : Fin 16 → EReal) (c : Fin 16) : EReal :=
  softmax (fun c' => logit x P psq (W c') (B c')) c

/-- The result over the 16384 flattened rows, from the five arrays a row tile is computed from: the rows, the prototypes,
    the prototypes' squared norms as one row, the weights, the bias as one row. -/
def rowsResult (A0 : (⟨2, ![16384, 1024]⟩ : Shape).Idx → EReal) (A1 : (⟨2, ![1024, 1024]⟩ : Shape).Idx → EReal)
    (A2 : (⟨2, ![1, 1024]⟩ : Shape).Idx → EReal) (A3 : (⟨2, ![16, 1024]⟩ : Shape).Idx → EReal)
    (A4 : (⟨2, ![1, 16]⟩ : Shape).Idx → EReal) : (⟨2, ![16384, 16]⟩ : Shape).Idx → EReal :=
  fun i => out (fun k => A0 (ix2 (⟨(i 0).val, idx2_lt0 i⟩ : Fin 16384) k)) (fun j k => A1 (ix2 j k)) (fun j => A2 (ix2 (0 : Fin 1) j))
    (fun c' j => A3 (ix2 c' j)) (fun c' => A4 (ix2 (0 : Fin 1) c')) (⟨(i 1).val, idx2_lt1 i⟩ : Fin 16)

theorem rowsResult_apply (A0 : (⟨2, ![16384, 1024]⟩ : Shape).Idx → EReal) (A1 : (⟨2, ![1024, 1024]⟩ : Shape).Idx → EReal)
    (A2 : (⟨2, ![1, 1024]⟩ : Shape).Idx → EReal) (A3 : (⟨2, ![16, 1024]⟩ : Shape).Idx → EReal)
    (A4 : (⟨2, ![1, 16]⟩ : Shape).Idx → EReal) (n : Fin 16384) (c : Fin 16) :
    rowsResult A0 A1 A2 A3 A4 (ix2 n c) = out (fun k => A0 (ix2 n k)) (fun j k => A1 (ix2 j k)) (fun j => A2 (ix2 (0 : Fin 1) j))
      (fun c' j => A3 (ix2 c' j)) (fun c' => A4 (ix2 (0 : Fin 1) c')) c := rfl

/-- The result over the [64, 256] grid of rows, from the four arguments: the prototypes' squared norms are recomputed. -/
def result (X : (⟨3, ![64, 256, 1024]⟩ : Shape).Idx → EReal) (P : (⟨2, ![1024, 1024]⟩ : Shape).Idx → EReal)
    (W : (⟨2, ![16, 1024]⟩ : Shape).Idx → EReal) (B : (⟨1, ![16]⟩ : Shape).Idx → EReal) :
    (⟨3, ![64, 256, 16]⟩ : Shape).Idx → EReal :=
  fun i => out (fun k => X (ix3 (⟨(i 0).val, (i 0).isLt⟩ : Fin 64) (⟨(i 1).val, (i 1).isLt⟩ : Fin 256) k)) (fun j k => P (ix2 j k))
    (fun j => sqnorm fun k => P (ix2 j k)) (fun c' j => W (ix2 c' j)) (fun c' => B (ix1 c')) (⟨(i 2).val, (i 2).isLt⟩ : Fin 16)

theorem result_apply (X : (⟨3, ![64, 256, 1024]⟩ : Shape).Idx → EReal) (P : (⟨2, ![1024, 1024]⟩ : Shape).Idx → EReal)
    (W : (⟨2, ![16, 1024]⟩ : Shape).Idx → EReal) (B : (⟨1, ![16]⟩ : Shape).Idx → EReal) (b : Fin 64) (t : Fin 256) (c : Fin 16) :
    result X P W B (ix3 b t c) = out (fun k => X (ix3 b t k)) (fun j k => P (ix2 j k))
      (fun j => sqnorm fun k => P (ix2 j k)) (fun c' j => W (ix2 c' j)) (fun c' => B (ix1 c')) c := rfl

end Cert.ProtoSoftmax

end
-- ==== Proof.LibKeepdims.lean ====
/-
  Layout operations of small shapes read at an index, for row-wise reductions kept as a column and for a vector used as a
  one-row matrix; the float word of minus infinity; the host's exponential and logarithm at an index.

  A row-wise reduction of an `a × b` array (a maximum, a sum) is a vector of `a` entries; to combine it with the array again it
  is cast or broadcast to a column `a × 1` and the column is broadcast along the rows to `a × b`. Read at (p, c), each of these
  is the vector's entry `p`. A vector of `n` entries reshaped to a one-row matrix `1 × n` is the same as the vector broadcast
  along axis 1 of that shape. None of this depends on a program.
-/
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.ValueIdx

/-! ## A column of row values: the keepdims cast and its broadcast along the rows -/

section Columns
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array broadcast in dimension 0 to `[a, 1]` reads, at `(i, u)`, the operand at `i`. -/
theorem broadcastInDim_a_a1_apply {a : ℕ} (hbc : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] hbc x (ix2 i u) = x (ix1 i) := by
  refine broadcastInDim_apply ![0] hbc x (ix2 i u) (ix1 i) fun ax => ?_
  match ax with
  | ⟨0, _⟩ =>
    show i.val = if a = 1 then 0 else i.val
    split
    · have := i.isLt; omega
    · rfl

/-- An `[a, 1]` array broadcast in dimensions (0, 1) to `[a, b]` reads, at `(p, c)`, the operand's one column at row `p`. -/
theorem broadcastInDim_a1_ab_apply {a b : ℕ} (hbc : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] hbc v (ix2 p c) = v (ix2 p (0 : Fin 1)) := by
  refine broadcastInDim_apply ![0, 1] hbc v (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A vector as a one-row matrix -/

/-- A vector of `n` entries reshaped to one row is the vector broadcast along axis 1 of a one-row matrix. -/
theorem reshape_row_eq_broadcast {n : Nat} (x : (⟨1, ![n]⟩ : Shape).Idx → EReal)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ x h = broadcastInDim ⟨2, ![1, n]⟩ ![1] h' x := by
  funext i
  obtain ⟨a, b, rfl⟩ : ∃ (a : Fin 1) (b : Fin n), i = ix2 a b := ⟨i 0, i 1, eq_ix2 i⟩
  have e1 := shapeCast_apply x h (ix2 a b) (ix1 b) (by
    rw [Shape.rowMajor_val_two, Shape.rowMajor_val_one]
    have := a.isLt
    show b.val = a.val * n + b.val
    have : a.val = 0 := by omega
    rw [this]; omega)
  have e2 := broadcastInDim_apply ![1] h' x (ix2 a b) (ix1 b) (by
    intro d
    match d with
    | ⟨0, _⟩ =>
      show b.val = if n = 1 then 0 else b.val
      split
      · have := b.isLt; omega
      · rfl)
  exact e1.trans e2.symm

/-! ## Values on the extended reals -/

/-- The word of `−∞` at f32 is the extended reals' bottom. -/
theorem ofBits_negInf_f32 : Ideal.ofBits .f32 0xFF800000#32 = ⊥ := by simp [Ideal.ofBits, Ideal.ieee]

/-- The host's exponential of an array at an index is the exponential of the entry. -/
theorem hostExp_apply {s : Shape} (v : FVec Ideal s .f32) (i : s.Idx) : Host.exp v i = Ideal.exp (v i) := rfl

/-- The host's logarithm of an array at an index is the logarithm of the entry. -/
theorem hostLog_apply {s : Shape} (v : FVec Ideal s .f32) (i : s.Idx) : Host.log v i = Ideal.log (v i) := rfl

end Cert.Gcn

end
-- ==== Proof.Payload.lean ====
/-
  One row tile of the kernel, read entry by entry on the extended reals.

  The tile's body takes a [512, 1024] block of rows, the [1024, 1024] prototypes, their squared norms as a [1, 1024] row, the
  [16, 1024] weights and the [1, 16] bias, and stores a [512, 16] block. Read at row r and class c of the block, the stored
  value is the row function of the specification at the block's row r: the lane sums are finite sums over the 1024 (or 16)
  lanes, the two matrix products into a zero accumulator are sums of products over the contracted axis, the keepdims casts and
  broadcasts read the row's own value, the lane maximum is the fold of max from minus infinity, and the narrowing of the
  matrix products' operands is the identity on extended reals.
-/
import proofs.«159685_j30820685316154_1_alg».proof.Proof.Gen.KernelIdeal.Skeleton
import proofs.«159685_j30820685316154_1_alg».proof.Proof.Spec
import proofs.«159685_j30820685316154_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Cert.ProtoSoftmax Cert.Gcn Idealize.ShloMosaic Idealize.ShloMosaic.ValueIdx

/-! ## The lane reductions of a tile at a row -/

/-- The sum over the 1024 lanes of row r. -/
theorem sum_lanes_1024 (v : FVec Ideal S512x1024 .f32) (h : S512x1024.Reduces [1] S512) (hφ : FKind.Formats .f32)
    (hacc : @Eq (BitVec FTy.f32.bits) 0x00000000#32 0x00000000#32) (r : Fin 512) :
    multiReduction (F := Ideal) .add [1] S512 v 0x00000000#32 h hφ hacc (ix1 r) = ∑ k : Fin 1024, v (ix2 r k) := by
  refine (Ideal.multiReduction_add_single v _ h hφ hacc (ix1 r)).trans ?_
  refine Finset.sum_congr rfl fun k _ => congrArg v ?_
  exact funext fun a => Fin.ext (by match a with | ⟨0, _⟩ => rfl | ⟨1, _⟩ => rfl)

/-- The sum over the 16 lanes of row r. -/
theorem sum_lanes_16 (v : FVec Ideal S512x16 .f32) (h : S512x16.Reduces [1] S512) (hφ : FKind.Formats .f32)
    (hacc : @Eq (BitVec FTy.f32.bits) 0x00000000#32 0x00000000#32) (r : Fin 512) :
    multiReduction (F := Ideal) .add [1] S512 v 0x00000000#32 h hφ hacc (ix1 r) = ∑ c : Fin 16, v (ix2 r c) := by
  refine (Ideal.multiReduction_add_single v _ h hφ hacc (ix1 r)).trans ?_
  refine Finset.sum_congr rfl fun k _ => congrArg v ?_
  exact funext fun a => Fin.ext (by match a with | ⟨0, _⟩ => rfl | ⟨1, _⟩ => rfl)

/-- The maximum over the 16 lanes of row r: the fold of max from minus infinity. -/
theorem max_lanes_16 (v : FVec Ideal S512x16 .f32) (h : S512x16.Reduces [1] S512) (hφ : FKind.Formats .f32)
    (hacc : @Eq (BitVec FTy.f32.bits) 0xFF800000#32 0xFF800000#32) (r : Fin 512) :
    multiReduction (F := Ideal) .maximumf [1] S512 v 0xFF800000#32 h hφ hacc (ix1 r)
      = (Finset.univ : Finset (Fin 16)).fold max ninf (fun c => v (ix2 r c)) := by
  refine (Ideal.multiReduction_maximumf_single v _ h hφ hacc (ix1 r)).trans ?_
  have e : (v ∘ h.lift (ix1 r)) = fun c : Fin 16 => v (ix2 r c) :=
    funext fun c => congrArg v (funext fun a => Fin.ext (by match a with | ⟨0, _⟩ => rfl | ⟨1, _⟩ => rfl))
  rw [e]
  rfl

/-! ## The two matrix products of a tile at an entry -/

/-- The distance product's dimension numbers: both operands contract their axis 1. -/
abbrev D1 : DotDims S512x1024 S1024x1024 S512x1024 := dot_S512x1024_S1024x1024_S512x1024_1_1_0_0_n_n
/-- The classifier product's dimension numbers: both operands contract their axis 1. -/
abbrev D2 : DotDims S512x1024 S16x1024 S512x16 := dot_S512x1024_S16x1024_S512x16_1_1_0_0_n_n

theorem D1_lhs0 (i : S512x1024.Idx) (q : D1.contr.Idx) : (D1.lhsIdx i q 0).val = (i 0).val := by
  unfold DotDims.lhsIdx
  rw [dif_neg (show ¬(0 : Fin S512x1024.rank) ∈ D1.lhsBatch by decide), dif_pos (show (0 : Fin S512x1024.rank) ∈ D1.lhsNonContracting by decide)]
  rfl
theorem D1_lhs1 (i : S512x1024.Idx) (q : D1.contr.Idx) : (D1.lhsIdx i q 1).val = (q ⟨0, by decide⟩).val :=
  D1.lhsIdx_val_of_single rfl i q
theorem D1_rhs0 (i : S512x1024.Idx) (q : D1.contr.Idx) : (D1.rhsIdx i q 0).val = (i 1).val := by
  unfold DotDims.rhsIdx
  rw [dif_neg (show ¬(0 : Fin S1024x1024.rank) ∈ D1.rhsBatch by decide), dif_pos (show (0 : Fin S1024x1024.rank) ∈ D1.rhsNonContracting by decide)]
  rfl
theorem D1_rhs1 (i : S512x1024.Idx) (q : D1.contr.Idx) : (D1.rhsIdx i q 1).val = (q ⟨0, by decide⟩).val :=
  D1.rhsIdx_val_of_single rfl i q

/-- Entry (r, j) of the distance product: the inner product of the tile's row r with prototype j. -/
theorem mm1_apply (a : FVec Ideal S512x1024 .bf16) (b : FVec Ideal S1024x1024 .bf16) (r : Fin 512) (j : Fin 1024) :
    matmul (F := Ideal) D1 none a b (constant (F := Ideal) S512x1024 .f32 0x00000000#32) (ix2 r j)
      = ∑ k : Fin 1024, a (ix2 r k) * b (ix2 j k) := by
  show FloatOps.matmul D1 none a b (constant (F := Ideal) S512x1024 .f32 0x00000000#32) (ix2 r j) = _
  rw [Ideal.matmul_constant_zero_apply, ← Equiv.sum_comp (contrEquiv1 D1 1024 rfl rfl).symm]
  refine Finset.sum_congr rfl fun k _ => ?_
  have hk := contrEquiv1_symm_val D1 1024 rfl rfl k
  have el : D1.lhsIdx (ix2 r j) ((contrEquiv1 D1 1024 rfl rfl).symm k) = ix2 r k := funext fun x => Fin.ext (by
    match x with
    | ⟨0, _⟩ => exact D1_lhs0 _ _
    | ⟨1, _⟩ => exact (D1_lhs1 _ _).trans hk)
  have er : D1.rhsIdx (ix2 r j) ((contrEquiv1 D1 1024 rfl rfl).symm k) = ix2 j k := funext fun x => Fin.ext (by
    match x with
    | ⟨0, _⟩ => exact D1_rhs0 _ _
    | ⟨1, _⟩ => exact (D1_rhs1 _ _).trans hk)
  rw [el, er]

theorem D2_lhs0 (i : S512x16.Idx) (q : D2.contr.Idx) : (D2.lhsIdx i q 0).val = (i 0).val := by
  unfold DotDims.lhsIdx
  rw [dif_neg (show ¬(0 : Fin S512x1024.rank) ∈ D2.lhsBatch by decide), dif_pos (show (0 : Fin S512x1024.rank) ∈ D2.lhsNonContracting by decide)]
  rfl
theorem D2_lhs1 (i : S512x16.Idx) (q : D2.contr.Idx) : (D2.lhsIdx i q 1).val = (q ⟨0, by decide⟩).val :=
  D2.lhsIdx_val_of_single rfl i q
theorem D2_rhs0 (i : S512x16.Idx) (q : D2.contr.Idx) : (D2.rhsIdx i q 0).val = (i 1).val := by
  unfold DotDims.rhsIdx
  rw [dif_neg (show ¬(0 : Fin S16x1024.rank) ∈ D2.rhsBatch by decide), dif_pos (show (0 : Fin S16x1024.rank) ∈ D2.rhsNonContracting by decide)]
  rfl
theorem D2_rhs1 (i : S512x16.Idx) (q : D2.contr.Idx) : (D2.rhsIdx i q 1).val = (q ⟨0, by decide⟩).val :=
  D2.rhsIdx_val_of_single rfl i q

/-- Entry (r, c) of the classifier product: the inner product of row r of the similarities with class c's weights. -/
theorem mm2_apply (a : FVec Ideal S512x1024 .bf16) (b : FVec Ideal S16x1024 .bf16) (r : Fin 512) (c : Fin 16) :
    matmul (F := Ideal) D2 none a b (constant (F := Ideal) S512x16 .f32 0x00000000#32) (ix2 r c)
      = ∑ j : Fin 1024, a (ix2 r j) * b (ix2 c j) := by
  show FloatOps.matmul D2 none a b (constant (F := Ideal) S512x16 .f32 0x00000000#32) (ix2 r c) = _
  rw [Ideal.matmul_constant_zero_apply, ← Equiv.sum_comp (contrEquiv1 D2 1024 rfl rfl).symm]
  refine Finset.sum_congr rfl fun k _ => ?_
  have hk := contrEquiv1_symm_val D2 1024 rfl rfl k
  have el : D2.lhsIdx (ix2 r c) ((contrEquiv1 D2 1024 rfl rfl).symm k) = ix2 r k := funext fun x => Fin.ext (by
    match x with
    | ⟨0, _⟩ => exact D2_lhs0 _ _
    | ⟨1, _⟩ => exact (D2_lhs1 _ _).trans hk)
  have er : D2.rhsIdx (ix2 r c) ((contrEquiv1 D2 1024 rfl rfl).symm k) = ix2 c k := funext fun x => Fin.ext (by
    match x with
    | ⟨0, _⟩ => exact D2_rhs0 _ _
    | ⟨1, _⟩ => exact (D2_rhs1 _ _).trans hk)
  rw [el, er]

/-! ## The tile's stored value at an entry -/

/-- The exponential of a tile at an entry is the exponential of the entry. -/
theorem exp_apply {s : Shape} (v : FVec Ideal s .f32) (i : s.Idx) : exp v i = Ideal.exp (v i) := rfl

/-- Zero minus x is minus x on the extended reals. -/
theorem zero_word_sub (x : EReal) : Ideal.ofBits .f32 0x00000000#32 - x = -x := by
  rw [Ideal.ofBits_zero_f32, zero_sub]

/-- THE TILE AT (r, c): the row function of the tile's row r at class c. -/
theorem pay_apply (x0 : FVec Ideal S512x1024 .f32) (x1 : FVec Ideal S1024x1024 .bf16) (x2 : FVec Ideal S1x1024 .f32)
    (x3 : FVec Ideal S16x1024 .bf16) (x4 : FVec Ideal S1x16 .f32) (r : Fin 512) (c : Fin 16) :
    k0_pay1 (F := Ideal) x0 x1 x2 x3 x4 (ix2 r c)
      = out (fun k => x0 (ix2 r k)) (fun j k => x1 (ix2 j k)) (fun j => x2 (ix2 (0 : Fin 1) j)) (fun c' j => x3 (ix2 c' j))
          (fun c' => x4 (ix2 (0 : Fin 1) c')) c := by
  unfold k0_pay1
  repeat (first
    | simp only [divf_apply, subf_apply, addf_apply, mulf_apply, exp_apply, maximumf_apply, broadcast_apply, truncf_apply, shapeCast_self,
      broadcastTo_a1_ab_apply, broadcastTo_1b_ab_apply, shapeCast_a_a1_apply, mm1_apply, mm2_apply, zero_word_sub, Ideal.ofBits_def]
    | rw [sum_lanes_1024 _ _ _ _ r]
    | rw [max_lanes_16 _ _ _ _ r]
    | rw [sum_lanes_16 _ _ _ _ r])
  rfl

end Cert.KernelIdeal.Hand

end
-- ==== Proof.Blocks.lean ====
/-
  From row tiles to the whole [16384, 16] array.

  Grid point t of the 32 works on rows 512 t … 512 t + 511: its block of the row array is those rows, the other four inputs
  are whole at every point, and it writes back rows 512 t … 512 t + 511 of the output. The tile's stored value at (r, c) is
  the row function at the block's row r, which is row 512 t + r of the row array; so what point t writes back is block t of
  ONE function of the five arrays as the region finds them. Every row n lies in the block of point n / 512, so after the
  last point the output array is that function.
-/
import proofs.«159685_j30820685316154_1_alg».proof.Proof.Gen.KernelIdeal.Frame
import proofs.«159685_j30820685316154_1_alg».proof.Proof.Payload
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.ProtoSoftmax Idealize.ShloMosaic.ValueIdx

variable (m : (ℓ : Loc nD τ sig) → Buf (Elt Ideal) ℓ) (ρ : Dev nD → PrngReg)

theorem offsets_zero : (![0, 0] : Fin 2 → Nat) = fun _ => 0 := funext fun a => by fin_cases a <;> rfl

/-- The printed index maps over the 32 points: the row array's and the output's block index is (t, 0); the other four
    windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A tile whose rows are rows 512 T … of the row array, and whose other inputs are the whole arrays, stores at (r, c) the
    array function at (512 T + r, c). -/
theorem tile_eq (A0 : S16384x1024.Idx → EReal) (A1 : S1024x1024.Idx → EReal) (A2 : S1x1024.Idx → EReal)
    (A3 : S16x1024.Idx → EReal) (A4 : S1x16.Idx → EReal)
    (x0 : FVec Ideal S512x1024 .f32) (x1 : FVec Ideal S1024x1024 .bf16) (x2 : FVec Ideal S1x1024 .f32)
    (x3 : FVec Ideal S16x1024 .bf16) (x4 : FVec Ideal S1x16 .f32) (T : Nat)
    (h0 : ∀ (r : Fin 512) (k : Fin 1024) (n : Fin 16384), n.val = T * 512 + r.val → x0 (ix2 r k) = A0 (ix2 n k))
    (h1 : ∀ (j k : Fin 1024), x1 (ix2 j k) = A1 (ix2 j k))
    (h2 : ∀ (j : Fin 1024), x2 (ix2 (0 : Fin 1) j) = A2 (ix2 (0 : Fin 1) j))
    (h3 : ∀ (c' : Fin 16) (j : Fin 1024), x3 (ix2 c' j) = A3 (ix2 c' j))
    (h4 : ∀ (c' : Fin 16), x4 (ix2 (0 : Fin 1) c') = A4 (ix2 (0 : Fin 1) c'))
    (y : S512x16.Idx) (i : S16384x16.Idx) (hi0 : (i 0).val = T * 512 + (y 0).val) (hi1 : (i 1).val = (y 1).val) :
    k0_pay1 (F := Ideal) x0 x1 x2 x3 x4 y = rowsResult A0 A1 A2 A3 A4 i := by
  obtain ⟨r, cc, rfl⟩ : ∃ (r : Fin 512) (cc : Fin 16), y = ix2 r cc := ⟨y 0, y 1, eq_ix2 y⟩
  obtain ⟨n, c', rfl⟩ : ∃ (n : Fin 16384) (c' : Fin 16), i = ix2 n c' := ⟨i 0, i 1, eq_ix2 i⟩
  have hn : n.val = T * 512 + r.val := hi0
  obtain rfl : c' = cc := Fin.ext hi1
  rw [pay_apply, rowsResult_apply]
  have e0 : (fun k => x0 (ix2 r k)) = fun k => A0 (ix2 n k) := funext fun k => h0 r k n hn
  have e1 : (fun j k => x1 (ix2 j k)) = fun j k => A1 (ix2 j k) := funext fun j => funext fun k => h1 j k
  have e2 : (fun j => x2 (ix2 (0 : Fin 1) j)) = fun j => A2 (ix2 (0 : Fin 1) j) := funext fun j => h2 j
  have e3 : (fun c' j => x3 (ix2 c' j)) = fun c' j => A3 (ix2 c' j) := funext fun c' => funext fun j => h3 c' j
  have e4 : (fun c' => x4 (ix2 (0 : Fin 1) c')) = fun c' => A4 (ix2 (0 : Fin 1) c') := funext fun c' => h4 c'
  rw [e0, e1, e2, e3, e4]

/-- WHAT POINT t WRITES BACK is block t of the array function of the five arrays as the region finds them. -/
theorem flushed_eq (c : Dev nD) (t : Fin cfg0.N) :
    (dats m 0 c).flushed 5 t = ((cfg0.win 5).blk t).view.read (Elt Ideal)
      (rowsResult (V m c main_v0) (V m c main_v1) (V m c main_v5) (V m c main_v6) (V m c main_v7)) := by
  show (cfg0.win 5).cut (grid0.coords t) ((dats m 0 c).after 5 t) = _
  rw [after0_5]
  unfold out0_5
  rw [View.canon_unit_zero offsets_zero]
  simp only [View.ld_unit_zero (S := S512x1024) offsets_zero, View.ld_unit_zero (S := S1024x1024) offsets_zero,
    View.ld_unit_zero (S := S1x1024) offsets_zero, View.ld_unit_zero (S := S16x1024) offsets_zero,
    View.ld_unit_zero (S := S1x16) offsets_zero]
  obtain ⟨e00, e01, e10, e11, e20, e21, e30, e31, e40, e41, e50, e51⟩ := idx_facts t
  funext j
  show k0_pay1 (iblk m c 0 t) (iblk m c 1 t) (iblk m c 2 t) (iblk m c 3 t) (iblk m c 4 t) j
    = rowsResult (V m c main_v0) (V m c main_v1) (V m c main_v5) (V m c main_v6) (V m c main_v7) (((cfg0.win 5).blk t).view.emb j)
  refine tile_eq (V m c main_v0) (V m c main_v1) (V m c main_v5) (V m c main_v6) (V m c main_v7)
    (iblk m c 0 t) (iblk m c 1 t) (iblk m c 2 t) (iblk m c 3 t) (iblk m c 4 t) t.val ?_ ?_ ?_ ?_ ?_ j _ ?_ ?_
  · intro r k n hn
    show V m c main_v0 (((cfg0.win 0).blk t).view.emb (ix2 r k)) = V m c main_v0 (ix2 n k)
    refine congrArg _ (funext fun a => Fin.ext ?_)
    match a with
    | ⟨0, _⟩ => show win0_0.index t (0 : Fin 2) * 512 + 1 * r.val = n.val; omega
    | ⟨1, _⟩ => show win0_0.index t (1 : Fin 2) * 1024 + 1 * k.val = k.val; omega
  · intro j k
    show V m c main_v1 (((cfg0.win 1).blk t).view.emb (ix2 j k)) = V m c main_v1 (ix2 j k)
    refine congrArg _ (funext fun a => Fin.ext ?_)
    match a with
    | ⟨0, _⟩ => show win0_1.index t (0 : Fin 2) * 1024 + 1 * j.val = j.val; omega
    | ⟨1, _⟩ => show win0_1.index t (1 : Fin 2) * 1024 + 1 * k.val = k.val; omega
  · intro j
    show V m c main_v5 (((cfg0.win 2).blk t).view.emb (ix2 (0 : Fin 1) j)) = V m c main_v5 (ix2 (0 : Fin 1) j)
    refine congrArg _ (funext fun a => Fin.ext ?_)
    match a with
    | ⟨0, _⟩ => show win0_2.index t (0 : Fin 2) * 1 + 1 * 0 = 0; omega
    | ⟨1, _⟩ => show win0_2.index t (1 : Fin 2) * 1024 + 1 * j.val = j.val; omega
  · intro c' j
    show V m c main_v6 (((cfg0.win 3).blk t).view.emb (ix2 c' j)) = V m c main_v6 (ix2 c' j)
    refine congrArg _ (funext fun a => Fin.ext ?_)
    match a with
    | ⟨0, _⟩ => show win0_3.index t (0 : Fin 2) * 16 + 1 * c'.val = c'.val; omega
    | ⟨1, _⟩ => show win0_3.index t (1 : Fin 2) * 1024 + 1 * j.val = j.val; omega
  · intro c'
    show V m c main_v7 (((cfg0.win 4).blk t).view.emb (ix2 (0 : Fin 1) c')) = V m c main_v7 (ix2 (0 : Fin 1) c')
    refine congrArg _ (funext fun a => Fin.ext ?_)
    match a with
    | ⟨0, _⟩ => show win0_4.index t (0 : Fin 2) * 1 + 1 * 0 = 0; omega
    | ⟨1, _⟩ => show win0_4.index t (1 : Fin 2) * 16 + 1 * c'.val = c'.val; omega
  · show win0_5.index t (0 : Fin 2) * 512 + 1 * (j 0).val = t.val * 512 + (j 0).val; omega
  · show win0_5.index t (1 : Fin 2) * 16 + 1 * (j 1).val = (j 1).val; omega

/-- An index of the output array is in point t's block iff each coordinate is in the block's range on its axis. -/
theorem mem_blk (t : Fin cfg0.N) (i : S16384x16.Idx) :
    i ∈ ((cfg0.win 5).blk t).view.set ↔ ∀ a : Fin 2, win0_5.index t a * S512x16.size a ≤ (i a).val ∧ (i a).val < win0_5.index t a * S512x16.size a + S512x16.size a := by
  show i ∈ ((View.whole main_v8).slice (win0_5.rect t)).set ↔ _
  rw [View.set_slice_whole, Rect.mem_set_unit]
  exact Iff.rfl

/-- Row n of the output lies in the block of point n / 512. -/
theorem cover (i : S16384x16.Idx) : ∃ t : Fin cfg0.N, (cfg0.win 5).flush t = true ∧ i ∈ ((cfg0.win 5).blk t).view.set := by
  have hN : grid0.N = 32 := N_0
  have hi0 : (i 0).val < 16384 := (i 0).isLt
  have hi1 : (i 1).val < 16 := (i 1).isLt
  have hlt : (i 0).val / 512 < grid0.N := by omega
  obtain ⟨-, -, -, -, -, -, -, -, -, -, e50, e51⟩ := idx_facts ⟨(i 0).val / 512, hlt⟩
  refine ⟨⟨(i 0).val / 512, hlt⟩, flush0_5 _, ?_⟩
  rw [mem_blk]
  intro a
  match a with
  | ⟨0, _⟩ =>
    show win0_5.index ⟨(i 0).val / 512, hlt⟩ (0 : Fin 2) * 512 ≤ (i 0).val ∧ (i 0).val < win0_5.index ⟨(i 0).val / 512, hlt⟩ (0 : Fin 2) * 512 + 512
    rw [e50]
    show (i 0).val / 512 * 512 ≤ (i 0).val ∧ (i 0).val < (i 0).val / 512 * 512 + 512
    omega
  | ⟨1, _⟩ =>
    show win0_5.index ⟨(i 0).val / 512, hlt⟩ (1 : Fin 2) * 16 ≤ (i 1).val ∧ (i 1).val < win0_5.index ⟨(i 0).val / 512, hlt⟩ (1 : Fin 2) * 16 + 16
    rw [e51]
    omega

/-- THE OUTPUT ARRAY after the last point: the array function of the five arrays as the region finds them. -/
theorem final (c : Dev nD) : (dats m 0 c).arrAt 5 cfg0.N
    = rowsResult (V m c main_v0) (V m c main_v1) (V m c main_v5) (V m c main_v6) (V m c main_v7) :=
  (dats m 0 c).arrAt_eq_of_cover 5 _ (fun t _ => flushed_eq m c t) cover

end Cert.KernelIdeal.Hand

end
-- ==== Proof.HostSide.lean ====
/-
  The arrays the region finds, and the array the program returns, read entry by entry.

  Before the region the program flattens the [64, 256, 1024] rows to [16384, 1024] (row b * 256 + t is row t of batch b), narrows
  the prototypes and the weights (the identity on extended reals), sums the squares of each prototype's entries and lays the
  1024 sums out as one row, and lays the bias out as one row. After the region it reshapes the [16384, 16] output to
  [64, 256, 16]: entry (b, t, c) is entry (b * 256 + t, c).
-/
import proofs.«159685_j30820685316154_1_alg».proof.Proof.Gen.KernelIdeal.Frame
import proofs.«159685_j30820685316154_1_alg».proof.Proof.Spec
import proofs.«159685_j30820685316154_1_alg».proof.Proof.LibKeepdims
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic
import Idealize.ShloMosaic.PureOps.Ideal.Laws

noncomputable section

open scoped BigOperators
open Idealize.ShloMosaic Idealize.ShloMosaic.TcCoe Idealize.SL.Sem
open Idealize.ShloMosaic.Pipeline (Dat)

namespace Cert.KernelIdeal.Hand

open Cert.KernelIdeal Cert.KernelIdeal.Gen Cert.ProtoSoftmax Cert.Gcn Idealize.ShloMosaic.ValueIdx

variable (m : (ℓ : Loc nD τ sig) → Buf (Elt Ideal) ℓ)

/-- The flattened rows: row b * 256 + t of the row array is row (b, t) of the first argument. -/
theorem rows_apply (c : Dev nD) (b : Fin 64) (t : Fin 256) (k : Fin 1024) (n : Fin 16384) (hn : n.val = b.val * 256 + t.val) :
    (V m c main_v0 : S16384x1024.Idx → EReal) (ix2 n k)
      = (m ((c : Thread nD τ).loc main_arg0) : S64x256x1024.Idx → EReal) (ix3 b t k) := by
  have e : (V m c main_v0 : S16384x1024.Idx → EReal)
      = shapeCast S16384x1024 (m ((c : Thread nD τ).loc main_arg0) : S64x256x1024.Idx → EReal) shapeCasts_S64x256x1024_S16384x1024 := by
    show StableHlo.after hostOps0 (fun b => m (c, b)) (Proc.devRef .tc main_v0) = _
    after_results <;> rfl
  rw [e]
  refine shapeCast_apply _ _ _ _ ?_
  show (S64x256x1024.rowMajor (ix3 b t k)).val = (S16384x1024.rowMajor (ix2 n k)).val
  rw [Shape.rowMajor_val_three, Shape.rowMajor_val_two]
  show (b.val * 256 + t.val) * 1024 + k.val = n.val * 1024 + k.val
  rw [hn]

/-- The narrowed prototypes are the prototypes. -/
theorem protos_apply (c : Dev nD) (j k : Fin 1024) :
    (V m c main_v1 : S1024x1024.Idx → EReal) (ix2 j k) = (m ((c : Thread nD τ).loc main_arg1) : S1024x1024.Idx → EReal) (ix2 j k) := by
  have e : (V m c main_v1 : S1024x1024.Idx → EReal)
      = truncf (F := Ideal) .bf16 (m ((c : Thread nD τ).loc main_arg1) : FVec Ideal S1024x1024 .f32) bitsLt_bf16_f32 := by
    show StableHlo.after hostOps0 (fun b => m (c, b)) (Proc.devRef .tc main_v1) = _
    after_results <;> rfl
  rw [e]
  rfl

/-- The narrowed weights are the weights. -/
theorem weights_apply (c : Dev nD) (c' : Fin 16) (j : Fin 1024) :
    (V m c main_v6 : S16x1024.Idx → EReal) (ix2 c' j) = (m ((c : Thread nD τ).loc main_arg2) : S16x1024.Idx → EReal) (ix2 c' j) := by
  have e : (V m c main_v6 : S16x1024.Idx → EReal)
      = truncf (F := Ideal) .bf16 (m ((c : Thread nD τ).loc main_arg2) : FVec Ideal S16x1024 .f32) bitsLt_bf16_f32 := by
    show StableHlo.after hostOps0 (fun b => m (c, b)) (Proc.devRef .tc main_v6) = _
    after_results <;> rfl
  rw [e]
  rfl

/-- The bias as one row. -/
theorem bias_apply (c : Dev nD) (c' : Fin 16) :
    (V m c main_v7 : S1x16.Idx → EReal) (ix2 (0 : Fin 1) c') = (m ((c : Thread nD τ).loc main_arg3) : S16.Idx → EReal) (ix1 c') := by
  have e : (V m c main_v7 : S1x16.Idx → EReal)
      = shapeCast S1x16 (m ((c : Thread nD τ).loc main_arg3) : S16.Idx → EReal) shapeCasts_S16_S1x16 := by
    show StableHlo.after hostOps0 (fun b => m (c, b)) (Proc.devRef .tc main_v7) = _
    after_results <;> rfl
  rw [e]
  exact shapeCast_a_1a_apply _ _ _ _

/-- The host's sum of the squares of prototype j's entries is its squared norm. -/
theorem hostSq_apply (P : FVec Ideal S1024x1024 .f32) (h' : S1024x1024.ReducesTo [1] S1024) (hS : 0 < S_.numel) (j : Fin 1024) :
    Host.reduceAdd (F := Ideal) (mulf P P) (constant (F := Ideal) S_ .f32 0x00000000#32) h' hS (ix1 j)
      = sqnorm (fun k => P (ix2 j k)) := by
  simp only [Host.reduceAdd, Ideal.hostReduceAdd_def]
  rw [Ideal.hostReduceAdd_single h' (by decide)]
  show Ideal.ofBits .f32 0x00000000#32 + _ = _
  rw [Ideal.ofBits_zero_f32, zero_add]
  unfold sqnorm
  refine Finset.sum_congr rfl fun k _ => ?_
  exact congrArg (mulf P P) (funext fun a => Fin.ext (by match a with | ⟨0, _⟩ => rfl | ⟨1, _⟩ => rfl))

/-- The prototypes' squared norms as one row. -/
theorem psq_apply (c : Dev nD) (j : Fin 1024) :
    (V m c main_v5 : S1x1024.Idx → EReal) (ix2 (0 : Fin 1) j)
      = sqnorm (fun k => (m ((c : Thread nD τ).loc main_arg1) : S1024x1024.Idx → EReal) (ix2 j k)) := by
  have e : (V m c main_v5 : S1x1024.Idx → EReal)
      = shapeCast S1x1024 (broadcastInDim S1024x1 ![0] bcast_S1024_S1024x1_0
          (Host.reduceAdd (F := Ideal) (mulf (m ((c : Thread nD τ).loc main_arg1) : FVec Ideal S1024x1024 .f32) (m ((c : Thread nD τ).loc main_arg1)))
            (constant (F := Ideal) S_ .f32 0x00000000#32) reducesTo_S1024x1024_S1024_d1 h_S_)) shapeCasts_S1024x1_S1x1024 := by
    show StableHlo.after hostOps0 (fun b => m (c, b)) (Proc.devRef .tc main_v5) = _
    after_results <;> rfl
  rw [e]
  refine (shapeCast_apply _ shapeCasts_S1024x1_S1x1024 (ix2 (0 : Fin 1) j) (ix2 j (0 : Fin 1)) ?_).trans ?_
  · rw [Shape.rowMajor_val_two, Shape.rowMajor_val_two]
    show j.val * 1 + 0 = 0 * 1024 + j.val
    omega
  · rw [broadcastInDim_a_a1_apply]
    exact hostSq_apply _ _ _ j

/-- The returned array: entry (b, t, c) is entry (b * 256 + t, c) of the region's output array after the last point. -/
theorem tail_apply (c : Dev nD) (b : Fin 64) (t : Fin 256) (cc : Fin 16) (n : Fin 16384) (hn : n.val = b.val * 256 + t.val) :
    (Pipeline.afterTail₀ cfgs (dats m) 0 (V0 m) [hostOps1] c main_v9 : S64x256x16.Idx → EReal) (ix3 b t cc)
      = ((dats m 0 c).arrAt 5 cfg0.N : S16384x16.Idx → EReal) (ix2 n cc) := by
  have e : (Pipeline.afterTail₀ cfgs (dats m) 0 (V0 m) [hostOps1] c main_v9 : S64x256x16.Idx → EReal)
      = shapeCast S64x256x16 ((dats m 0 c).arrAt 5 cfg0.N : S16384x16.Idx → EReal) shapeCasts_S16384x16_S64x256x16 := by
    unfold Pipeline.afterTail₀
    show StableHlo.after hostOps1 _ (Proc.devRef .tc main_v9) = _
    after_results
    have hw := Pipeline.withArrays_arr (cfgs 0).spec launch0.win.arr_inj c (V0 m c) (fun w => (dats m 0 c).arrAt w (cfgs 0).N) 5
    exact funext fun i => congrArg (fun z => shapeCast S64x256x16 z shapeCasts_S16384x16_S64x256x16 i) hw
  rw [e]
  refine shapeCast_apply _ _ _ _ ?_
  show (S16384x16.rowMajor (ix2 n cc)).val = (S64x256x16.rowMajor (ix3 b t cc)).val
  rw [Shape.rowMajor_val_two, Shape.rowMajor_val_three]
  show n.val * 16 + cc.val = (b.val * 256 + t.val) * 16 + cc.val
  rw [hn]

end Cert.KernelIdeal.Hand

end
-- ==== Proof.KernelRun.lean ====
/-
  The kernel's program, run: the returned array is the specification's result of the four arguments.

  The returned [64, 256, 16] array at (b, t, c) is the region's output at row b * 256 + t, which is the row function of that
  row of the flattened rows — row (b, t) of the first argument —, of the prototypes, of their squared norms (which the program
  computes before the region as the sums of the squares of each prototype's entries), of the weights and of the bias.
-/
import proofs.«159685_j30820685316154_1_alg».proof.Proof.Blocks
import proofs.«159685_j30820685316154_1_alg».proof.Proof.HostSide

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.ProtoSoftmax Idealize.ShloMosaic.ValueIdx

variable (m : (ℓ : Loc nD τ sig) → Buf (Elt Ideal) ℓ) (ρ : Dev nD → PrngReg)

/-- The returned array is the specification's result of the four arguments. -/
theorem returned_eq (c : Dev nD) :
    (Pipeline.afterTail₀ cfgs (dats m) 0 (V0 m) [hostOps1] c main_v9 : S64x256x16.Idx → EReal)
      = result (m ((c : Thread nD τ).loc main_arg0)) (m ((c : Thread nD τ).loc main_arg1))
          (m ((c : Thread nD τ).loc main_arg2)) (m ((c : Thread nD τ).loc main_arg3)) := by
  refine funext fun (i : S64x256x16.Idx) => ?_
  obtain ⟨b, t, cc, rfl⟩ : ∃ (b : Fin 64) (t : Fin 256) (cc : Fin 16), i = ix3 b t cc := ⟨i 0, i 1, i 2, eq_ix3 i⟩
  have hb := b.isLt
  have ht := t.isLt
  obtain ⟨n, hn⟩ : ∃ n : Fin 16384, n.val = b.val * 256 + t.val := ⟨⟨b.val * 256 + t.val, by omega⟩, rfl⟩
  rw [tail_apply m c b t cc n hn, final m c, rowsResult_apply, result_apply]
  have e0 : (fun k => (V m c main_v0 : S16384x1024.Idx → EReal) (ix2 n k))
      = fun k => (m ((c : Thread nD τ).loc main_arg0) : S64x256x1024.Idx → EReal) (ix3 b t k) :=
    funext fun k => rows_apply m c b t k n hn
  have e1 : (fun j k => (V m c main_v1 : S1024x1024.Idx → EReal) (ix2 j k))
      = fun j k => (m ((c : Thread nD τ).loc main_arg1) : S1024x1024.Idx → EReal) (ix2 j k) :=
    funext fun j => funext fun k => protos_apply m c j k
  have e2 : (fun j => (V m c main_v5 : S1x1024.Idx → EReal) (ix2 (0 : Fin 1) j))
      = fun j => sqnorm fun k => (m ((c : Thread nD τ).loc main_arg1) : S1024x1024.Idx → EReal) (ix2 j k) :=
    funext fun j => psq_apply m c j
  have e3 : (fun c' j => (V m c main_v6 : S16x1024.Idx → EReal) (ix2 c' j))
      = fun c' j => (m ((c : Thread nD τ).loc main_arg2) : S16x1024.Idx → EReal) (ix2 c' j) :=
    funext fun c' => funext fun j => weights_apply m c c' j
  have e4 : (fun c' => (V m c main_v7 : S1x16.Idx → EReal) (ix2 (0 : Fin 1) c'))
      = fun c' => (m ((c : Thread nD τ).loc main_arg3) : S16.Idx → EReal) (ix1 c') :=
    funext fun c' => bias_apply m c c'
  rw [e0, e1, e2, e3, e4]

/-- The kernel's program from any memory: every weakly fair execution terminates, the returned array holds the
    specification's result of the four arguments, and the arguments end unchanged. -/
theorem run : θ_run defs (onTc (τ := τ) (main (F := Ideal))) ⟨m, fun _ => 0, ρ⟩ fun r => ∀ c : Dev nD,
      r.2.mem ((c.tc : Thread nD τ).loc main_v9) = result (m ((c : Thread nD τ).loc main_arg0))
          (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v9 (Pipeline.mem_restRefs_of main_v9 (by decide) (by decide))).trans (returned_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.RefValue.lean ====
/-
  The reference program, read one element at a time, computes the specification's result: at grid position (b, t) and
  class c it returns the softmax, over the 16 classes, of the logits of row b * 256 + t of the flattened input.
  The steps: the similarity of a flattened row to one prototype; one class's logit; the largest logit as a fold of max;
  the shifted exponentials and their quotient by their sum.
-/
import proofs.«159685_j30820685316154_1_alg».proof.Proof.Gen.ReferenceIdeal.Read
import proofs.«159685_j30820685316154_1_alg».proof.Proof.Spec
import Idealize.ShloMosaic.PureOps.Reduce

noncomputable section

open scoped BigOperators

namespace Cert.ReferenceIdeal.RefValue

open Cert.ReferenceIdeal Cert.ReferenceIdeal.Read Cert.ProtoSoftmax Idealize.ShloMosaic Idealize.ShloMosaic.ValueIdx

/-- The flattened row of the grid position (b, t): b * 256 + t. -/
def row (b : Fin 64) (t : Fin 256) : Fin 16384 :=
  ⟨b.val * 256 + t.val, by have hb := b.isLt; have ht := t.isLt; omega⟩

/-! ## Index equations: the composed index maps of the reference, at indices given by coordinates -/

/-- The row whose squares are summed for entry (n, j) of the distance table is row n. -/
theorem ix_v2 (n : Fin 16384) (j k : Fin 1024) :
    idx_main_v2 (idx_main_v3 (idx_main_v7 (ix2 n j))) k = ix2 n k :=
  funext fun a => Fin.ext (by match a with | ⟨0, _⟩ => rfl | ⟨1, _⟩ => rfl)

/-- The prototype whose squares are summed for entry (n, j) is prototype j. -/
theorem ix_v5 (n : Fin 16384) (j k : Fin 1024) :
    idx_main_v5 (idx_main_v6 (idx_main_v8 (ix2 n j))) k = ix2 j k :=
  funext fun a => Fin.ext (by match a with | ⟨0, _⟩ => rfl | ⟨1, _⟩ => rfl)

/-- The left factor of the inner product at (n, j) runs along row n. -/
theorem ix_l11 (n : Fin 16384) (j k : Fin 1024) : lidx_main_v11 (ix2 n j) k = ix2 n k :=
  funext fun a => Fin.ext (by match a with | ⟨0, _⟩ => rfl | ⟨1, _⟩ => rfl)

/-- The right factor, read through the transposition, runs along prototype j. -/
theorem ix_r11 (n : Fin 16384) (j k : Fin 1024) : idx_main_v10 (ridx_main_v11 (ix2 n j) k) = ix2 j k :=
  funext fun a => Fin.ext (by match a with | ⟨0, _⟩ => rfl | ⟨1, _⟩ => rfl)

/-- Entry k of flattened row b * 256 + t is entry (b, t, k) of the input. -/
theorem ix_v0 (b : Fin 64) (t : Fin 256) (k : Fin 1024) : idx_main_v0 (ix2 (row b t) k) = ix3 b t k :=
  funext fun a => Fin.ext (by
    have hb := b.isLt; have ht := t.isLt; have hk := k.isLt
    match a with
    | ⟨0, _⟩ => show ((b.val * 256 + t.val) * 1024 + k.val) / 262144 = b.val; omega
    | ⟨1, _⟩ => show ((b.val * 256 + t.val) * 1024 + k.val) / 1024 % 256 = t.val; omega
    | ⟨2, _⟩ => show ((b.val * 256 + t.val) * 1024 + k.val) % 1024 = k.val; omega)

/-- Entry (b, t, k) of the reshaped similarity table is entry (b * 256 + t, k) of the flat one. -/
theorem ix_v17 (b : Fin 64) (t : Fin 256) (c : Fin 16) (k : Fin 1024) :
    idx_main_v17 (lidx_main_v18 (ix3 b t c) k) = ix2 (row b t) k :=
  funext fun a => Fin.ext (by
    have hb := b.isLt; have ht := t.isLt; have hk := k.isLt
    match a with
    | ⟨0, _⟩ => show ((b.val * 256 + t.val) * 1024 + k.val) / 1024 = b.val * 256 + t.val; omega
    | ⟨1, _⟩ => show ((b.val * 256 + t.val) * 1024 + k.val) % 1024 = k.val; omega)

/-- The weights of class c. -/
theorem ix_r18 (b : Fin 64) (t : Fin 256) (c : Fin 16) (k : Fin 1024) : ridx_main_v18 (ix3 b t c) k = ix2 c k :=
  funext fun a => Fin.ext (by match a with | ⟨0, _⟩ => rfl | ⟨1, _⟩ => rfl)

/-- The bias of class c. -/
theorem ix_v19 (b : Fin 64) (t : Fin 256) (c : Fin 16) : idx_main_v19 (idx_main_v20 (ix3 b t c)) = ix1 c :=
  funext fun a => Fin.ext (by match a with | ⟨0, _⟩ => rfl)

/-- The shift of position (b, t), read from class c. -/
theorem ix_v25 (b : Fin 64) (t : Fin 256) (c : Fin 16) : idx_main_v25 (idx_main_v26 (ix3 b t c)) = ix2 b t :=
  funext fun a => Fin.ext (by match a with | ⟨0, _⟩ => rfl | ⟨1, _⟩ => rfl)

/-- The normaliser of position (b, t), read from class c. -/
theorem ix_v30 (b : Fin 64) (t : Fin 256) (c : Fin 16) : idx_main_v30 (idx_main_v31 (ix3 b t c)) = ix2 b t :=
  funext fun a => Fin.ext (by match a with | ⟨0, _⟩ => rfl | ⟨1, _⟩ => rfl)

/-- The classes summed over at position (b, t). -/
theorem ix_v29 (b : Fin 64) (t : Fin 256) (k : Fin 16) : idx_main_v29 (ix2 b t) k = ix3 b t k :=
  funext fun a => Fin.ext (by match a with | ⟨0, _⟩ => rfl | ⟨1, _⟩ => rfl | ⟨2, _⟩ => rfl)

/-! ## The similarity and the logit -/

/-- Entry (n, j) of the similarity table: the similarity of flattened row n to prototype j. -/
theorem sim_eq (X : (⟨S64x256x1024, .f32⟩ : BufTy).Contents (Elt Ideal)) (P : (⟨S1024x1024, .f32⟩ : BufTy).Contents (Elt Ideal))
    (n : Fin 16384) (j : Fin 1024) :
    val_main_v16 (F := Ideal) X P (ix2 n j)
      = sim (fun k => val_main_v0 (F := Ideal) X (ix2 n k)) (fun k => P (ix2 j k)) (sqnorm fun k => P (ix2 j k)) := by
  rw [val_main_v16_apply, val_main_v15_apply, val_main_v14_apply, val_main_v9_apply, val_main_v13_apply,
    val_main_v7_apply, val_main_v3_apply, val_main_v2_apply, val_main_v8_apply, val_main_v6_apply, val_main_v5_apply,
    val_main_v12_apply, val_main_v11_apply]
  simp only [val_main_v1_apply, val_main_v4_apply, val_main_v10_apply, val_main_cst_apply, val_main_cst_0_apply,
    val_main_cst_1_apply, ix_v2, ix_v5, ix_l11, ix_r11, Ideal.hostUnary_exp_def, Ideal.hostNegf_def, Ideal.negf_def,
    Ideal.subf_def, Ideal.addf_def, Ideal.mulf_def, Ideal.ofBits_def, Ideal.ofBits_zero_f32, zero_add]
  unfold sim sqnorm
  rfl

/-- The logit of class c at position (b, t): the similarities of row b * 256 + t to the prototypes, weighted by the
    class's weights, plus its bias. -/
theorem logit_eq (X : (⟨S64x256x1024, .f32⟩ : BufTy).Contents (Elt Ideal)) (P : (⟨S1024x1024, .f32⟩ : BufTy).Contents (Elt Ideal))
    (W : (⟨S16x1024, .f32⟩ : BufTy).Contents (Elt Ideal)) (B : (⟨S16, .f32⟩ : BufTy).Contents (Elt Ideal))
    (b : Fin 64) (t : Fin 256) (c : Fin 16) :
    val_main_v21 (F := Ideal) X P W B (ix3 b t c)
      = logit (fun k => X (ix3 b t k)) (fun j k => P (ix2 j k)) (fun j => sqnorm fun k => P (ix2 j k))
          (fun j => W (ix2 c j)) (B (ix1 c)) := by
  rw [val_main_v21_apply, val_main_v18_apply, val_main_v20_apply, val_main_v19_apply]
  simp only [val_main_v17_apply, ix_v17, ix_r18, ix_v19, sim_eq, val_main_v0_apply, ix_v0, Ideal.addf_def]
  unfold logit
  rfl

/-! ## The largest logit -/

/-- The index over (b, t) with class c put back on the dropped axis. -/
theorem lift_eq (h : S64x256x16.Reduces [2] S64x256) (b : Fin 64) (t : Fin 256) (c : Fin 16) :
    h.lift (ix2 b t) c = ix3 b t c :=
  funext fun a => Fin.ext (by match a with | ⟨0, _⟩ => rfl | ⟨1, _⟩ => rfl | ⟨2, _⟩ => rfl)

/-- The reduction by max over the classes, at (b, t), is the fold of max from minus infinity over the 16 logits. -/
theorem v22_eq (X : (⟨S64x256x1024, .f32⟩ : BufTy).Contents (Elt Ideal)) (P : (⟨S1024x1024, .f32⟩ : BufTy).Contents (Elt Ideal))
    (W : (⟨S16x1024, .f32⟩ : BufTy).Contents (Elt Ideal)) (B : (⟨S16, .f32⟩ : BufTy).Contents (Elt Ideal))
    (b : Fin 64) (t : Fin 256) :
    val_main_v22 (F := Ideal) X P W B (ix2 b t)
      = (Finset.univ : Finset (Fin 16)).fold max ninf (fun c' => val_main_v21 (F := Ideal) X P W B (ix3 b t c')) := by
  unfold val_main_v22
  refine (Host.reduce_eq_fold_single (FloatOps.maximumf (F := Ideal) (φ := .f32)) _ _ _ (by decide) _ _).trans ?_
  exact Finset.fold_congr (fun c' _ => congrArg (val_main_v21 (F := Ideal) X P W B) (lift_eq _ b t c'))

/-- The shift at (b, t) is the specification's, of the 16 logits. -/
theorem v24_eq (X : (⟨S64x256x1024, .f32⟩ : BufTy).Contents (Elt Ideal)) (P : (⟨S1024x1024, .f32⟩ : BufTy).Contents (Elt Ideal))
    (W : (⟨S16x1024, .f32⟩ : BufTy).Contents (Elt Ideal)) (B : (⟨S16, .f32⟩ : BufTy).Contents (Elt Ideal))
    (b : Fin 64) (t : Fin 256) :
    val_main_v24 (F := Ideal) X P W B (ix2 b t) = rowmax (fun c' => val_main_v21 (F := Ideal) X P W B (ix3 b t c')) := by
  rw [val_main_v24_apply, val_main_v23_apply, val_main_cst_3_apply, v22_eq]
  rfl

/-! ## The softmax -/

/-- The shifted exponential of class c at (b, t). -/
theorem v28_eq (X : (⟨S64x256x1024, .f32⟩ : BufTy).Contents (Elt Ideal)) (P : (⟨S1024x1024, .f32⟩ : BufTy).Contents (Elt Ideal))
    (W : (⟨S16x1024, .f32⟩ : BufTy).Contents (Elt Ideal)) (B : (⟨S16, .f32⟩ : BufTy).Contents (Elt Ideal))
    (b : Fin 64) (t : Fin 256) (c : Fin 16) :
    val_main_v28 (F := Ideal) X P W B (ix3 b t c)
      = Ideal.exp (val_main_v21 (F := Ideal) X P W B (ix3 b t c)
          - rowmax (fun c' => val_main_v21 (F := Ideal) X P W B (ix3 b t c'))) := by
  rw [val_main_v28_apply, val_main_v27_apply, val_main_v26_apply, val_main_v25_apply, ix_v25, v24_eq,
    Ideal.hostUnary_exp_def, Ideal.subf_def]

/-- The reference computes the specification's result. -/
theorem ref_is_result (X : (⟨S64x256x1024, .f32⟩ : BufTy).Contents (Elt Ideal)) (P : (⟨S1024x1024, .f32⟩ : BufTy).Contents (Elt Ideal))
    (W : (⟨S16x1024, .f32⟩ : BufTy).Contents (Elt Ideal)) (B : (⟨S16, .f32⟩ : BufTy).Contents (Elt Ideal)) :
    val_main_v32 (F := Ideal) X P W B = Cert.ProtoSoftmax.result X P W B := by
  funext i
  obtain ⟨b, t, c, rfl⟩ : ∃ (b : Fin 64) (t : Fin 256) (c : Fin 16), i = ix3 b t c := ⟨i 0, i 1, i 2, eq_ix3 i⟩
  rw [result_apply, val_main_v32_apply, val_main_v31_apply, val_main_v30_apply, ix_v30, val_main_v29_apply,
    val_main_cst_4_apply]
  simp only [ix_v29, v28_eq, logit_eq, Ideal.hostDivf_def, Ideal.ofBits_def, Ideal.ofBits_zero_f32, zero_add]
  unfold out softmax
  rfl

end Cert.ReferenceIdeal.RefValue

end
-- ==== Proof.lean ====
/-
  A prototype layer, a linear classifier and a softmax: the tiled kernel and the jnp reference compute one function.

  Both programs take rows X [64, 256, 1024], prototypes P [1024, 1024], weights W [16, 1024] and a bias b [16]. For a row x
  and prototype p_j the similarity is exp(-((|x|^2 + |p_j|^2) - 2 <x, p_j>)); class c's logit is sum_j sim_j * W[c, j] + b[c];
  the result is the softmax of the 16 logits, shifted by their maximum (Proof/Spec.lean). The kernel flattens the rows to
  [16384, 1024], computes the prototypes' squared norms once before the region, and works on 32 tiles of 512 rows; at the
  extended reals its narrowing of the matrix products' operands is the identity, its two matrix products into zero
  accumulators are sums of products over the contracted axis, its lane sums are finite sums, and its lane maximum is the
  fold of max from minus infinity (Proof/Payload.lean: one tile at an entry; Proof/Blocks.lean: the 32 tiles fill the output
  array; Proof/HostSide.lean: the arrays before and after the region; Proof/KernelRun.lean: the run). The reference computes
  the same sums in its own layout (Proof/RefValue.lean). Only commutativity and associativity of finite sums of extended
  reals are used, so the finiteness of the inputs is never opened. The idealization rewrote nothing, so that it preserves the
  kernel is trivially true.
-/
import proofs.«159685_j30820685316154_1_alg».proof.Defs
import proofs.«159685_j30820685316154_1_alg».proof.Proof.Gen.Kernel
import proofs.«159685_j30820685316154_1_alg».proof.Proof.Gen.Kernel.Skeleton
import proofs.«159685_j30820685316154_1_alg».proof.Proof.Gen.Kernel.Launch
import proofs.«159685_j30820685316154_1_alg».proof.Proof.Gen.Kernel.Points
import proofs.«159685_j30820685316154_1_alg».proof.Proof.Gen.Kernel.Frame
import proofs.«159685_j30820685316154_1_alg».proof.Proof.Gen.KernelIdeal
import proofs.«159685_j30820685316154_1_alg».proof.Proof.Gen.KernelIdeal.Skeleton
import proofs.«159685_j30820685316154_1_alg».proof.Proof.Gen.KernelIdeal.Launch
import proofs.«159685_j30820685316154_1_alg».proof.Proof.Gen.KernelIdeal.Points
import proofs.«159685_j30820685316154_1_alg».proof.Proof.Gen.KernelIdeal.Frame
import proofs.«159685_j30820685316154_1_alg».proof.Proof.Gen.ReferenceIdeal
import proofs.«159685_j30820685316154_1_alg».proof.Proof.Gen.Pre_finite_inputs
import proofs.«159685_j30820685316154_1_alg».proof.Proof.Gen.ReferenceIdeal.Run
import proofs.«159685_j30820685316154_1_alg».proof.Proof.Gen.ReferenceIdeal.Read
import proofs.«159685_j30820685316154_1_alg».proof.Proof.KernelRun
import proofs.«159685_j30820685316154_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments both programs end with the specification's result of those arguments. -/
theorem algebraic : Cert.algebraic_KernelIdeal_ReferenceIdeal := by
  intro m ρ m' ρ' _ hagree
  refine ⟨fun c => Cert.ProtoSoftmax.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefValue.ref_is_result,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
